-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x512 : Shape := ⟨3, ![64, 128, 512]⟩
abbrev S64x128x64 : Shape := ⟨3, ![64, 128, 64]⟩
abbrev S64x4096x1x512 : Shape := ⟨4, ![64, 4096, 1, 512]⟩
abbrev S64x4096x1x64 : Shape := ⟨4, ![64, 4096, 1, 64]⟩
abbrev S_ : Shape := ⟨0, ![]⟩

class Facts : Prop where
  bcast_S_S64x128x512 : S_.BroadcastsInDim S64x128x512 (![] : Fin 0 → Fin S64x128x512.rank)
  reducesTo_S64x128x512_S_d0_1_2 : S64x128x512.ReducesTo [0, 1, 2] S_
  h_S_ : 0 < S_.numel
  bcast_S_S64x128x64 : S_.BroadcastsInDim S64x128x64 (![] : Fin 0 → Fin S64x128x64.rank)
  reducesTo_S64x128x64_S_d0_1_2 : S64x128x64.ReducesTo [0, 1, 2] S_
  bcast_S_S64x4096x1x512 : S_.BroadcastsInDim S64x4096x1x512 (![] : Fin 0 → Fin S64x4096x1x512.rank)
  reducesTo_S64x4096x1x512_S_d0_1_2_3 : S64x4096x1x512.ReducesTo [0, 1, 2, 3] S_
  bcast_S_S64x4096x1x64 : S_.BroadcastsInDim S64x4096x1x64 (![] : Fin 0 → Fin S64x4096x1x64.rank)
  reducesTo_S64x4096x1x64_S_d0_1_2_3 : S64x4096x1x64.ReducesTo [0, 1, 2, 3] S_

variable [Facts]

def fn_part1 {F : FTy → Type} [FloatOps F] (main_v13 : IVec S_ 1) (main_v16 : IVec S64x4096x1x64 1) : IVec S_ 1 :=
  let main_c_5 : IVec S_ 1 := constantI S_ 1 1#1
  let main_v17 : IVec S_ 1 := (fun x v => Host.reduce IntOp.andi x v reducesTo_S64x4096x1x64_S_d0_1_2_3 h_S_) main_v16 main_c_5
  let main_v18 : IVec S_ 1 := andi main_v13 main_v17
  main_v18

def fn {F : FTy → Type} [FloatOps F] (main_arg0 : FVec F S64x128x512 .f32) (main_arg1 : FVec F S64x128x64 .f32) (main_arg2 : FVec F S64x4096x1x512 .f32) (main_arg3 : FVec F S64x4096x1x64 .f32) : IVec S_ 1 :=
  let main_v0 : FVec F S64x128x512 .f32 := Host.absf main_arg0
  let main_cst : FVec F S_ .f32 := constant S_ .f32 0x7F800000#32
  let main_v1 : FVec F S64x128x512 .f32 := broadcastInDim S64x128x512 ![] bcast_S_S64x128x512 main_cst
  let main_v2 : IVec S64x128x512 1 := cmpf .olt main_v0 main_v1
  let main_c : IVec S_ 1 := constantI S_ 1 1#1
  let main_v3 : IVec S_ 1 := (fun x v => Host.reduce IntOp.andi x v reducesTo_S64x128x512_S_d0_1_2 h_S_) main_v2 main_c
  let main_v4 : FVec F S64x128x64 .f32 := Host.absf main_arg1
  let main_cst_0 : FVec F S_ .f32 := constant S_ .f32 0x7F800000#32
  let main_v5 : FVec F S64x128x64 .f32 := broadcastInDim S64x128x64 ![] bcast_S_S64x128x64 main_cst_0
  let main_v6 : IVec S64x128x64 1 := cmpf .olt main_v4 main_v5
  let main_c_1 : IVec S_ 1 := constantI S_ 1 1#1
  let main_v7 : IVec S_ 1 := (fun x v => Host.reduce IntOp.andi x v reducesTo_S64x128x64_S_d0_1_2 h_S_) main_v6 main_c_1
  let main_v8 : IVec S_ 1 := andi main_v3 main_v7
  let main_v9 : FVec F S64x4096x1x512 .f32 := Host.absf main_arg2
  let main_cst_2 : FVec F S_ .f32 := constant S_ .f32 0x7F800000#32
  let main_v10 : FVec F S64x4096x1x512 .f32 := broadcastInDim S64x4096x1x512 ![] bcast_S_S64x4096x1x512 main_cst_2
  let main_v11 : IVec S64x4096x1x512 1 := cmpf .olt main_v9 main_v10
  let main_c_3 : IVec S_ 1 := constantI S_ 1 1#1
  let main_v12 : IVec S_ 1 := (fun x v => Host.reduce IntOp.andi x v reducesTo_S64x4096x1x512_S_d0_1_2_3 h_S_) main_v11 main_c_3
  let main_v13 : IVec S_ 1 := andi main_v8 main_v12
  let main_v14 : FVec F S64x4096x1x64 .f32 := Host.absf main_arg3
  let main_cst_4 : FVec F S_ .f32 := constant S_ .f32 0x7F800000#32
  let main_v15 : FVec F S64x4096x1x64 .f32 := broadcastInDim S64x4096x1x64 ![] bcast_S_S64x4096x1x64 main_cst_4
  let main_v16 : IVec S64x4096x1x64 1 := cmpf .olt main_v14 main_v15
  fn_part1 (F := F) main_v13 main_v16
-- ==== Kernel.lean ====
abbrev S64x128x512 : Shape := ⟨3, ![64, 128, 512]⟩
abbrev S64x128x64 : Shape := ⟨3, ![64, 128, 64]⟩
abbrev S64x4096x1x512 : Shape := ⟨4, ![64, 4096, 1, 512]⟩
abbrev S64x4096x1x64 : Shape := ⟨4, ![64, 4096, 1, 64]⟩
abbrev S1x128x512 : Shape := ⟨3, ![1, 128, 512]⟩
abbrev S1x128x64 : Shape := ⟨3, ![1, 128, 64]⟩
abbrev S1x4096x1x512 : Shape := ⟨4, ![1, 4096, 1, 512]⟩
abbrev S1x4096x1x64 : Shape := ⟨4, ![1, 4096, 1, 64]⟩
abbrev S128x512 : Shape := ⟨2, ![128, 512]⟩
abbrev S128x64 : Shape := ⟨2, ![128, 64]⟩
abbrev S4096x512 : Shape := ⟨2, ![4096, 512]⟩
abbrev S4096x64 : Shape := ⟨2, ![4096, 64]⟩
abbrev S128x4096 : Shape := ⟨2, ![128, 4096]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S64x128x512, .f32⟩
  | .hbm, ⟨1, _⟩ => ⟨S64x128x64, .f32⟩
  | .hbm, ⟨2, _⟩ => ⟨S64x4096x1x512, .f32⟩
  | .hbm, ⟨3, _⟩ => ⟨S64x4096x1x64, .f32⟩
  | .hbm, ⟨4, _⟩ => ⟨S64x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x64, .f32⟩
  | .local _ .vmem, ⟨3, _⟩ => ⟨S1x128x64, .f32⟩
  | .local _ .vmem, ⟨4, _⟩ => ⟨S1x4096x1x512, .f32⟩
  | .local _ .vmem, ⟨5, _⟩ => ⟨S1x4096x1x512, .f32⟩
  | .local _ .vmem, ⟨6, _⟩ => ⟨S1x4096x1x64, .f32⟩
  | .local _ .vmem, ⟨7, _⟩ => ⟨S1x4096x1x64, .f32⟩
  | .local _ .vmem, ⟨8, _⟩ => ⟨S1x128x512, .f32⟩
  | .local _ .vmem, ⟨9, _⟩ => ⟨S1x128x512, .f32⟩
  | _, _ => ⟨S64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x4096x1x512_S1x4096x1x512_0_0_0_0 : ∀ a, (![0, 0, 0, 0] : Fin 4 → Nat) a + S1x4096x1x512.size a ≤ S1x4096x1x512.size a
  h_S1x4096x1x512 : 0 < S1x4096x1x512.numel
  shapeCasts_S1x4096x1x512_S4096x512 : S1x4096x1x512.ShapeCasts S4096x512
  inb_S1x4096x1x64_S1x4096x1x64_0_0_0_0 : ∀ a, (![0, 0, 0, 0] : Fin 4 → Nat) a + S1x4096x1x64.size a ≤ S1x4096x1x64.size a
  h_S1x4096x1x64 : 0 < S1x4096x1x64.numel
  shapeCasts_S1x4096x1x64_S4096x64 : S1x4096x1x64.ShapeCasts S4096x64
  bitsLt_bf16_f32 : FTy.bits .bf16 < FTy.bits .f32
  reduces_S128x4096_S128 : S128x4096.Reduces [1] S128
  shapeCasts_S128_S128x1 : S128.ShapeCasts S128x1
  broadcasts_S128x1_S128x4096 : S128x1.Broadcasts S128x4096
  shapeCasts_S128x512_S1x128x512 : S128x512.ShapeCasts S1x128x512
  dot_S128x512_S4096x512_S128x4096_1_1_0_0_n_n_wf : DotDims.WF S128x512 S4096x512 S128x4096 [1] [1] [0] [0] [] []
  dot_S128x64_S4096x64_S128x4096_1_1_0_0_n_n_wf : DotDims.WF S128x64 S4096x64 S128x4096 [1] [1] [0] [0] [] []
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S64x128x512.size a
  hwx0_0 : ∀ i : grid0.Coords, EltTy.bits .f32 = 32 ∨ (Rect.block (s := S64x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S64x128x64.size a
  hwx0_1 : ∀ i : grid0.Coords, EltTy.bits .f32 = 32 ∨ (Rect.block (s := S64x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1x512.size a ≤ S64x4096x1x512.size a
  hwx0_2 : ∀ i : grid0.Coords, EltTy.bits .f32 = 32 ∨ (Rect.block (s := S64x4096x1x512) S1x4096x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1x64.size a ≤ S64x4096x1x64.size a
  hwx0_3 : ∀ i : grid0.Coords, EltTy.bits .f32 = 32 ∨ (Rect.block (s := S64x4096x1x64) S1x4096x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S64x128x512.size a
  hwx0_4 : ∀ i : grid0.Coords, EltTy.bits .f32 = 32 ∨ (Rect.block (s := S64x128x512) S1x128x512.size (cc0_transform_4 i) (hinb0_4 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4096x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x128x512 : Shape := ⟨3, ![64, 128, 512]⟩
abbrev S64x128x64 : Shape := ⟨3, ![64, 128, 64]⟩
abbrev S64x4096x1x512 : Shape := ⟨4, ![64, 4096, 1, 512]⟩
abbrev S64x4096x1x64 : Shape := ⟨4, ![64, 4096, 1, 64]⟩
abbrev S64x4096x512 : Shape := ⟨3, ![64, 4096, 512]⟩
abbrev S64x4096x64 : Shape := ⟨3, ![64, 4096, 64]⟩
abbrev S64x128x4096 : Shape := ⟨3, ![64, 128, 4096]⟩
abbrev S_ : Shape := ⟨0, ![]⟩
abbrev S64x128 : Shape := ⟨2, ![64, 128]⟩
abbrev S64x128x1 : Shape := ⟨3, ![64, 128, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S64x128x64, .f32⟩
  | .hbm, ⟨2, _⟩ => ⟨S64x4096x1x512, .f32⟩
  | .hbm, ⟨3, _⟩ => ⟨S64x4096x1x64, .f32⟩
  | .hbm, ⟨4, _⟩ => ⟨S64x4096x512, .f32⟩
  | .hbm, ⟨5, _⟩ => ⟨S64x4096x64, .f32⟩
  | .hbm, ⟨6, _⟩ => ⟨S64x128x4096, .f32⟩
  | .hbm, ⟨7, _⟩ => ⟨S64x128x4096, .f32⟩
  | .hbm, ⟨8, _⟩ => ⟨S64x128x4096, .f32⟩
  | .hbm, ⟨9, _⟩ => ⟨S_, .f32⟩
  | .hbm, ⟨10, _⟩ => ⟨S64x128x4096, .f32⟩
  | .hbm, ⟨11, _⟩ => ⟨S64x128x4096, .f32⟩
  | .hbm, ⟨12, _⟩ => ⟨S_, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128x1, .f32⟩
  | .hbm, ⟨18, _⟩ => ⟨S64x128x4096, .f32⟩
  | .hbm, ⟨19, _⟩ => ⟨S64x128x4096, .f32⟩
  | .hbm, ⟨20, _⟩ => ⟨S64x128x4096, .f32⟩
  | .hbm, ⟨21, _⟩ => ⟨S_, .f32⟩
  | .hbm, ⟨22, _⟩ => ⟨S64x128, .f32⟩
  | .hbm, ⟨23, _⟩ => ⟨S64x128x1, .f32⟩
  | .hbm, ⟨24, _⟩ => ⟨S64x128x4096, .f32⟩
  | .hbm, ⟨25, _⟩ => ⟨S64x128x4096, .f32⟩
  | .hbm, ⟨26, _⟩ => ⟨S64x128x512, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S64x4096x1x512_S64x4096x512 : S64x4096x1x512.ShapeCasts S64x4096x512
  shapeCasts_S64x4096x1x64_S64x4096x64 : S64x4096x1x64.ShapeCasts S64x4096x64
  bcast_S_S64x128x4096 : S_.BroadcastsInDim S64x128x4096 (![] : Fin 0 → Fin S64x128x4096.rank)
  reducesTo_S64x128x4096_S64x128_d2 : S64x128x4096.ReducesTo [2] S64x128
  h_S_ : 0 < S_.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S64x128x1_S64x128x4096_0_1_2 : S64x128x1.BroadcastsInDim S64x128x4096 (![0, 1, 2] : Fin 3 → Fin S64x128x4096.rank)
  dot_S64x128x512_S64x4096x512_S64x128x4096_2_2_1_1_0_0_wf : DotDims.WF S64x128x512 S64x4096x512 S64x128x4096 [2] [2] [1] [1] [0] [0]
  dot_S64x128x64_S64x4096x64_S64x128x4096_2_2_1_1_0_0_wf : DotDims.WF S64x128x64 S64x4096x64 S64x128x4096 [2] [2] [1] [1] [0] [0]
  dot_S64x128x4096_S64x4096x512_S64x128x512_2_1_1_2_0_0_wf : DotDims.WF S64x128x4096 S64x4096x512 S64x128x512 [2] [1] [1] [2] [0] [0]

variable [Facts₀]

def dot_S64x128x512_S64x4096x512_S64x128x4096_2_2_1_1_0_0 : DotDims S64x128x512 S64x4096x512 S64x128x4096 where
  lhsContracting := [2]
  rhsContracting := [2]
  lhsNonContracting := [1]
  rhsNonContracting := [1]
  lhsBatch := [0]
  rhsBatch := [0]
  wf := dot_S64x128x512_S64x4096x512_S64x128x4096_2_2_1_1_0_0_wf
def dot_S64x128x64_S64x4096x64_S64x128x4096_2_2_1_1_0_0 : DotDims S64x128x64 S64x4096x64 S64x128x4096 where
  lhsContracting := [2]
  rhsContracting := [2]
  lhsNonContracting := [1]
  rhsNonContracting := [1]
  lhsBatch := [0]
  rhsBatch := [0]
  wf := dot_S64x128x64_S64x4096x64_S64x128x4096_2_2_1_1_0_0_wf
def dot_S64x128x4096_S64x4096x512_S64x128x512_2_1_1_2_0_0 : DotDims S64x128x4096 S64x4096x512 S64x128x512 where
  lhsContracting := [2]
  rhsContracting := [1]
  lhsNonContracting := [1]
  rhsNonContracting := [2]
  lhsBatch := [0]
  rhsBatch := [0]
  wf := dot_S64x128x4096_S64x4096x512_S64x128x512_2_1_1_2_0_0_wf

class Facts : Prop extends Facts₀ where

variable [Facts]
-- ==== Proof.Attention.lean ====
/-
  One query head attending to one batch's keys, on the extended reals.

  A query row `q` (512 latent coordinates) with its rotary part `qp` (64 coordinates) meets 4096 keys: key `s` has latent
  row `kv s` and rotary row `kp s`.  The score of key `s` is the sum of the two inner products times a fixed factor; the
  row's weights are the exponentials of the scores taken off the row's largest score; each weight divided by the weights'
  total is the key's probability; and the head's output at latent coordinate `d` is the probabilities' combination of
  the keys' latent rows, `Σ_s prob s · kv s d`.  The latent rows serve twice, as keys and as values.

  The factor and the value a row's maximum is started from are kept as the two binary32 words they are written as:
  they are never evaluated, only met again.  `attend` is the same thing for whole arrays: 64 batches of 128 heads,
  each batch with its own 4096 keys shared by its heads.
-/
import Idealize.ShloMosaic.PureOps.Ideal
import Idealize.ShloMosaic.Lib.ValueIdx

noncomputable section

open scoped BigOperators
open Idealize.ShloMosaic Idealize.ShloMosaic.ValueIdx

namespace Cert.Attention

/-- The factor on every score: the binary32 word nearest to 1/24 (24 = √(512 + 64)). -/
abbrev scale : EReal := Ideal.ofBits .f32 0x3D2AAAAB#32
/-- Where a row's maximum starts: the binary32 word of minus infinity. -/
abbrev floor : EReal := Ideal.ofBits .f32 0xFF800000#32

section Head

variable (q : Fin 512 → EReal) (qp : Fin 64 → EReal) (kv : Fin 4096 → Fin 512 → EReal) (kp : Fin 4096 → Fin 64 → EReal)

/-- Key `s`'s score: latent inner product plus rotary inner product, scaled. -/
def score (s : Fin 4096) : EReal := (∑ k : Fin 512, q k * kv s k + ∑ k : Fin 64, qp k * kp s k) * scale

/-- The row's largest score (the maximum over the keys, started from `floor` and met with `floor` once more). -/
def peak : EReal := max floor ((Finset.univ : Finset (Fin 4096)).fold max floor (score q qp kv kp))

/-- Key `s`'s weight: the exponential of its score's distance below the peak. -/
def weight (s : Fin 4096) : EReal := Ideal.exp (score q qp kv kp s - peak q qp kv kp)

/-- The weights' total. -/
def mass : EReal := ∑ s : Fin 4096, weight q qp kv kp s

/-- Key `s`'s probability. -/
def prob (s : Fin 4096) : EReal := Ideal.div (weight q qp kv kp s) (mass q qp kv kp)

/-- The head's output at latent coordinate `d`. -/
def head (d : Fin 512) : EReal := ∑ s : Fin 4096, prob q qp kv kp s * kv s d

end Head

variable (Q : (⟨3, ![64, 128, 512]⟩ : Shape).Idx → EReal) (Qp : (⟨3, ![64, 128, 64]⟩ : Shape).Idx → EReal)
  (KV : (⟨4, ![64, 4096, 1, 512]⟩ : Shape).Idx → EReal) (Kp : (⟨4, ![64, 4096, 1, 64]⟩ : Shape).Idx → EReal)

/-- Batch `b`, head `h`, latent coordinate `d` of the whole arrays' attention: the head's rows are `Q[b, h, ·]` and
    `Qp[b, h, ·]`, the keys' rows `KV[b, s, 0, ·]` and `Kp[b, s, 0, ·]`. -/
def attendAt (b : Fin 64) (h : Fin 128) (d : Fin 512) : EReal :=
  head (fun k => Q (ix3 b h k)) (fun k => Qp (ix3 b h k)) (fun s k => KV (ix4 b s (0 : Fin 1) k))
    (fun s k => Kp (ix4 b s (0 : Fin 1) k)) d

/-- The attention of the whole arrays, index by index. -/
def attend : (⟨3, ![64, 128, 512]⟩ : Shape).Idx → EReal := fun i => attendAt Q Qp KV Kp (i 0) (i 1) (i 2)

theorem attend_ix3 (b : Fin 64) (h : Fin 128) (d : Fin 512) :
    attend Q Qp KV Kp (ix3 b h d) = attendAt Q Qp KV Kp b h d := rfl

end Cert.Attention

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelHead.lean ====
/-
  What the kernel's body computes from one grid point's four blocks: each of the block's 128 heads attends to the block's
  4096 keys, exactly as `Attention.head` says.

  The body's one stored value is split into its stages — the two operands of each product with their unit axes dropped,
  the scores, each row's peak, the weights, each row's mass, the probabilities, the output — and each stage is read at
  an index: a product into a zero accumulator is the sum over its one contracted coordinate, a row maximum is the fold
  of `max` over the row, a row sum is the sum over the row, and a row's peak or mass kept as a column and repeated along
  the row is that row's entry.  Rounding to bfloat16 is the identity on the extended reals, so it leaves no trace.
-/
import proofs.«135643_j50680614093643_1_alg».proof.Proof.Gen.KernelIdeal.Skeleton
import proofs.«135643_j50680614093643_1_alg».proof.Proof.Attention
import proofs.«135643_j50680614093643_1_alg».proof.Proof.LibColumn
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Head

open Cert.KernelIdeal Cert.KernelIdeal.Gen Cert.Attention

variable (x0 : Vec Ideal S1x128x512 .f32) (x1 : Vec Ideal S1x128x64 .f32) (x2 : Vec Ideal S1x4096x1x512 .f32)
  (x3 : Vec Ideal S1x4096x1x64 .f32)

/-! ## The block's rows -/

/-- Head `h`'s latent query row in the block. -/
abbrev qRow (h : Fin 128) : Fin 512 → EReal := fun k => x0 (ix3 (0 : Fin 1) h k)
/-- Head `h`'s rotary query row. -/
abbrev qpRow (h : Fin 128) : Fin 64 → EReal := fun k => x1 (ix3 (0 : Fin 1) h k)
/-- The block's keys' latent rows. -/
abbrev kvRows : Fin 4096 → Fin 512 → EReal := fun s k => x2 (ix4 (0 : Fin 1) s (0 : Fin 1) k)
/-- The block's keys' rotary rows. -/
abbrev kpRows : Fin 4096 → Fin 64 → EReal := fun s k => x3 (ix4 (0 : Fin 1) s (0 : Fin 1) k)

/-! ## The body's stages -/

def qM : FVec Ideal S128x512 .bf16 := truncf .bf16 (shapeCast S128x512 x0 shapeCasts_S1x128x512_S128x512) bitsLt_bf16_f32
def qpM : FVec Ideal S128x64 .bf16 := truncf .bf16 (shapeCast S128x64 x1 shapeCasts_S1x128x64_S128x64) bitsLt_bf16_f32
def kvM : FVec Ideal S4096x512 .bf16 := truncf .bf16 (shapeCast S4096x512 x2 shapeCasts_S1x4096x1x512_S4096x512) bitsLt_bf16_f32
def kpM : FVec Ideal S4096x64 .bf16 := truncf .bf16 (shapeCast S4096x64 x3 shapeCasts_S1x4096x1x64_S4096x64) bitsLt_bf16_f32

def scoresM : FVec Ideal S128x4096 .f32 :=
  mulf (addf (matmul dot_S128x512_S4096x512_S128x4096_1_1_0_0_n_n none (qM x0) (kvM x2) (constant S128x4096 .f32 0x00000000#32))
      (matmul dot_S128x64_S4096x64_S128x4096_1_1_0_0_n_n none (qpM x1) (kpM x3) (constant S128x4096 .f32 0x00000000#32)))
    (broadcast S128x4096 (Scalar.ofBits .f32 0x3D2AAAAB#32))

def peakV : FVec Ideal S128 .f32 :=
  maximumf (broadcast S128 (Scalar.ofBits .f32 0xFF800000#32))
    (multiReduction .maximumf [1] S128 (scoresM x0 x1 x2 x3) 0xFF800000#32 reduces_S128x4096_S128 (.inl rfl) rfl)

def weightsM : FVec Ideal S128x4096 .f32 :=
  exp (subf (scoresM x0 x1 x2 x3)
    (broadcastTo S128x4096 (shapeCast S128x1 (peakV x0 x1 x2 x3) shapeCasts_S128_S128x1) broadcasts_S128x1_S128x4096))

def massV : FVec Ideal S128 .f32 :=
  multiReduction .add [1] S128 (weightsM x0 x1 x2 x3) 0x00000000#32 reduces_S128x4096_S128 (.inl rfl) rfl

def probsM : FVec Ideal S128x4096 .f32 :=
  divf (weightsM x0 x1 x2 x3)
    (broadcastTo S128x4096 (shapeCast S128x1 (massV x0 x1 x2 x3) shapeCasts_S128_S128x1) broadcasts_S128x1_S128x4096)

def outM : FVec Ideal S128x512 .f32 :=
  matmul dot_S128x4096_S4096x512_S128x512_1_0_0_1_n_n none (truncf .bf16 (probsM x0 x1 x2 x3) bitsLt_bf16_f32) (kvM x2)
    (constant S128x512 .f32 0x00000000#32)

/-- The stored value is the last stage with a unit axis put in front. -/
theorem payload_eq : k0_pay1 x0 x1 x2 x3 = shapeCast S1x128x512 (outM x0 x1 x2 x3) shapeCasts_S128x512_S1x128x512 := rfl

/-! ## The operands at an index -/

theorem qM_apply (h : Fin 128) (k : Fin 512) : qM x0 (ix2 h k) = x0 (ix3 (0 : Fin 1) h k) :=
  shapeCast_apply x0 shapeCasts_S1x128x512_S128x512 (ix2 h k) (ix3 (0 : Fin 1) h k) (by
    rw [Shape.rowMajor_val_three, Shape.rowMajor_val_two]
    show (0 * 128 + h.val) * 512 + k.val = h.val * 512 + k.val
    omega)

theorem qpM_apply (h : Fin 128) (k : Fin 64) : qpM x1 (ix2 h k) = x1 (ix3 (0 : Fin 1) h k) :=
  shapeCast_apply x1 shapeCasts_S1x128x64_S128x64 (ix2 h k) (ix3 (0 : Fin 1) h k) (by
    rw [Shape.rowMajor_val_three, Shape.rowMajor_val_two]
    show (0 * 128 + h.val) * 64 + k.val = h.val * 64 + k.val
    omega)

theorem kvM_apply (s : Fin 4096) (k : Fin 512) : kvM x2 (ix2 s k) = x2 (ix4 (0 : Fin 1) s (0 : Fin 1) k) :=
  shapeCast_apply x2 shapeCasts_S1x4096x1x512_S4096x512 (ix2 s k) (ix4 (0 : Fin 1) s (0 : Fin 1) k) (by
    rw [Shape.rowMajor_val_four, Shape.rowMajor_val_two]
    show ((0 * 4096 + s.val) * 1 + 0) * 512 + k.val = s.val * 512 + k.val
    omega)

theorem kpM_apply (s : Fin 4096) (k : Fin 64) : kpM x3 (ix2 s k) = x3 (ix4 (0 : Fin 1) s (0 : Fin 1) k) :=
  shapeCast_apply x3 shapeCasts_S1x4096x1x64_S4096x64 (ix2 s k) (ix4 (0 : Fin 1) s (0 : Fin 1) k) (by
    rw [Shape.rowMajor_val_four, Shape.rowMajor_val_two]
    show ((0 * 4096 + s.val) * 1 + 0) * 64 + k.val = s.val * 64 + k.val
    omega)

/-! ## The three products at an index -/

/-- Queries against keys along the latent coordinates: entry `(h, s)` is `Σ_k A[h, k] · B[s, k]` (the four facts before it place the operands' coordinates). -/
theorem latent_product_lhs_free (i : S128x4096.Idx) (q : dot_S128x512_S4096x512_S128x4096_1_1_0_0_n_n.contr.Idx) : (dot_S128x512_S4096x512_S128x4096_1_1_0_0_n_n.lhsIdx i q 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem latent_product_lhs_contr (i : S128x4096.Idx) (q : dot_S128x512_S4096x512_S128x4096_1_1_0_0_n_n.contr.Idx) : (dot_S128x512_S4096x512_S128x4096_1_1_0_0_n_n.lhsIdx i q 1).val = (q ⟨0, by decide⟩).val :=
  dot_S128x512_S4096x512_S128x4096_1_1_0_0_n_n.lhsIdx_val_of_single rfl i q
theorem latent_product_rhs_free (i : S128x4096.Idx) (q : dot_S128x512_S4096x512_S128x4096_1_1_0_0_n_n.contr.Idx) : (dot_S128x512_S4096x512_S128x4096_1_1_0_0_n_n.rhsIdx i q 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem latent_product_rhs_contr (i : S128x4096.Idx) (q : dot_S128x512_S4096x512_S128x4096_1_1_0_0_n_n.contr.Idx) : (dot_S128x512_S4096x512_S128x4096_1_1_0_0_n_n.rhsIdx i q 1).val = (q ⟨0, by decide⟩).val :=
  dot_S128x512_S4096x512_S128x4096_1_1_0_0_n_n.rhsIdx_val_of_single rfl i q
theorem latent_product (A : FVec Ideal S128x512 .bf16) (B : FVec Ideal S4096x512 .bf16) (h : Fin 128) (s : Fin 4096) :
    matmul dot_S128x512_S4096x512_S128x4096_1_1_0_0_n_n none A B (constant S128x4096 .f32 0x00000000#32) (ix2 h s)
      = ∑ k : Fin 512, A (ix2 h k) * B (ix2 s k) := by
  simp only [matmul]
  rw [Ideal.matmul_constant_zero_apply, ← Equiv.sum_comp (contrEquiv1 dot_S128x512_S4096x512_S128x4096_1_1_0_0_n_n 512 rfl rfl).symm]
  refine Finset.sum_congr rfl fun k _ => ?_
  have hk := contrEquiv1_symm_val dot_S128x512_S4096x512_S128x4096_1_1_0_0_n_n 512 rfl rfl k
  have el : dot_S128x512_S4096x512_S128x4096_1_1_0_0_n_n.lhsIdx (ix2 h s) ((contrEquiv1 dot_S128x512_S4096x512_S128x4096_1_1_0_0_n_n 512 rfl rfl).symm k) = ix2 h k :=
    funext fun a => Fin.ext (by
      match a with
      | ⟨0, _⟩ => exact latent_product_lhs_free _ _
      | ⟨1, _⟩ => exact (latent_product_lhs_contr _ _).trans hk)
  have er : dot_S128x512_S4096x512_S128x4096_1_1_0_0_n_n.rhsIdx (ix2 h s) ((contrEquiv1 dot_S128x512_S4096x512_S128x4096_1_1_0_0_n_n 512 rfl rfl).symm k) = ix2 s k :=
    funext fun a => Fin.ext (by
      match a with
      | ⟨0, _⟩ => exact latent_product_rhs_free _ _
      | ⟨1, _⟩ => exact (latent_product_rhs_contr _ _).trans hk)
  rw [el, er]

/-- Queries against keys along the rotary coordinates: entry `(h, s)` is `Σ_k A[h, k] · B[s, k]`. -/
theorem rotary_product_lhs_free (i : S128x4096.Idx) (q : dot_S128x64_S4096x64_S128x4096_1_1_0_0_n_n.contr.Idx) : (dot_S128x64_S4096x64_S128x4096_1_1_0_0_n_n.lhsIdx i q 0).val = (i 0).val := by
  unfold DotDims.lhsIdx
  rw [dif_neg (show ¬(0 : Fin S128x64.rank) ∈ dot_S128x64_S4096x64_S128x4096_1_1_0_0_n_n.lhsBatch by decide), dif_pos (show (0 : Fin S128x64.rank) ∈ dot_S128x64_S4096x64_S128x4096_1_1_0_0_n_n.lhsNonContracting by decide)]
  rfl
theorem rotary_product_lhs_contr (i : S128x4096.Idx) (q : dot_S128x64_S4096x64_S128x4096_1_1_0_0_n_n.contr.Idx) : (dot_S128x64_S4096x64_S128x4096_1_1_0_0_n_n.lhsIdx i q 1).val = (q ⟨0, by decide⟩).val :=
  dot_S128x64_S4096x64_S128x4096_1_1_0_0_n_n.lhsIdx_val_of_single rfl i q
theorem rotary_product_rhs_free (i : S128x4096.Idx) (q : dot_S128x64_S4096x64_S128x4096_1_1_0_0_n_n.contr.Idx) : (dot_S128x64_S4096x64_S128x4096_1_1_0_0_n_n.rhsIdx i q 0).val = (i 1).val := by
  unfold DotDims.rhsIdx
  rw [dif_neg (show ¬(0 : Fin S4096x64.rank) ∈ dot_S128x64_S4096x64_S128x4096_1_1_0_0_n_n.rhsBatch by decide), dif_pos (show (0 : Fin S4096x64.rank) ∈ dot_S128x64_S4096x64_S128x4096_1_1_0_0_n_n.rhsNonContracting by decide)]
  rfl
theorem rotary_product_rhs_contr (i : S128x4096.Idx) (q : dot_S128x64_S4096x64_S128x4096_1_1_0_0_n_n.contr.Idx) : (dot_S128x64_S4096x64_S128x4096_1_1_0_0_n_n.rhsIdx i q 1).val = (q ⟨0, by decide⟩).val :=
  dot_S128x64_S4096x64_S128x4096_1_1_0_0_n_n.rhsIdx_val_of_single rfl i q
theorem rotary_product (A : FVec Ideal S128x64 .bf16) (B : FVec Ideal S4096x64 .bf16) (h : Fin 128) (s : Fin 4096) :
    matmul dot_S128x64_S4096x64_S128x4096_1_1_0_0_n_n none A B (constant S128x4096 .f32 0x00000000#32) (ix2 h s)
      = ∑ k : Fin 64, A (ix2 h k) * B (ix2 s k) := by
  simp only [matmul]
  rw [Ideal.matmul_constant_zero_apply, ← Equiv.sum_comp (contrEquiv1 dot_S128x64_S4096x64_S128x4096_1_1_0_0_n_n 64 rfl rfl).symm]
  refine Finset.sum_congr rfl fun k _ => ?_
  have hk := contrEquiv1_symm_val dot_S128x64_S4096x64_S128x4096_1_1_0_0_n_n 64 rfl rfl k
  have el : dot_S128x64_S4096x64_S128x4096_1_1_0_0_n_n.lhsIdx (ix2 h s) ((contrEquiv1 dot_S128x64_S4096x64_S128x4096_1_1_0_0_n_n 64 rfl rfl).symm k) = ix2 h k :=
    funext fun a => Fin.ext (by
      match a with
      | ⟨0, _⟩ => exact rotary_product_lhs_free _ _
      | ⟨1, _⟩ => exact (rotary_product_lhs_contr _ _).trans hk)
  have er : dot_S128x64_S4096x64_S128x4096_1_1_0_0_n_n.rhsIdx (ix2 h s) ((contrEquiv1 dot_S128x64_S4096x64_S128x4096_1_1_0_0_n_n 64 rfl rfl).symm k) = ix2 s k :=
    funext fun a => Fin.ext (by
      match a with
      | ⟨0, _⟩ => exact rotary_product_rhs_free _ _
      | ⟨1, _⟩ => exact (rotary_product_rhs_contr _ _).trans hk)
  rw [el, er]

/-- Probabilities against the keys' latent rows, along the keys: entry `(h, d)` is `Σ_s A[h, s] · B[s, d]`. -/
theorem value_product_lhs_free (i : S128x512.Idx) (q : dot_S128x4096_S4096x512_S128x512_1_0_0_1_n_n.contr.Idx) : (dot_S128x4096_S4096x512_S128x512_1_0_0_1_n_n.lhsIdx i q 0).val = (i 0).val := by
  unfold DotDims.lhsIdx
  rw [dif_neg (show ¬(0 : Fin S128x4096.rank) ∈ dot_S128x4096_S4096x512_S128x512_1_0_0_1_n_n.lhsBatch by decide), dif_pos (show (0 : Fin S128x4096.rank) ∈ dot_S128x4096_S4096x512_S128x512_1_0_0_1_n_n.lhsNonContracting by decide)]
  rfl
theorem value_product_lhs_contr (i : S128x512.Idx) (q : dot_S128x4096_S4096x512_S128x512_1_0_0_1_n_n.contr.Idx) : (dot_S128x4096_S4096x512_S128x512_1_0_0_1_n_n.lhsIdx i q 1).val = (q ⟨0, by decide⟩).val :=
  dot_S128x4096_S4096x512_S128x512_1_0_0_1_n_n.lhsIdx_val_of_single rfl i q
theorem value_product_rhs_free (i : S128x512.Idx) (q : dot_S128x4096_S4096x512_S128x512_1_0_0_1_n_n.contr.Idx) : (dot_S128x4096_S4096x512_S128x512_1_0_0_1_n_n.rhsIdx i q 1).val = (i 1).val := by
  unfold DotDims.rhsIdx
  rw [dif_neg (show ¬(1 : Fin S4096x512.rank) ∈ dot_S128x4096_S4096x512_S128x512_1_0_0_1_n_n.rhsBatch by decide), dif_pos (show (1 : Fin S4096x512.rank) ∈ dot_S128x4096_S4096x512_S128x512_1_0_0_1_n_n.rhsNonContracting by decide)]
  rfl
theorem value_product_rhs_contr (i : S128x512.Idx) (q : dot_S128x4096_S4096x512_S128x512_1_0_0_1_n_n.contr.Idx) : (dot_S128x4096_S4096x512_S128x512_1_0_0_1_n_n.rhsIdx i q 0).val = (q ⟨0, by decide⟩).val :=
  dot_S128x4096_S4096x512_S128x512_1_0_0_1_n_n.rhsIdx_val_of_single rfl i q
theorem value_product (A : FVec Ideal S128x4096 .bf16) (B : FVec Ideal S4096x512 .bf16) (h : Fin 128) (d : Fin 512) :
    matmul dot_S128x4096_S4096x512_S128x512_1_0_0_1_n_n none A B (constant S128x512 .f32 0x00000000#32) (ix2 h d)
      = ∑ s : Fin 4096, A (ix2 h s) * B (ix2 s d) := by
  simp only [matmul]
  rw [Ideal.matmul_constant_zero_apply, ← Equiv.sum_comp (contrEquiv1 dot_S128x4096_S4096x512_S128x512_1_0_0_1_n_n 4096 rfl rfl).symm]
  refine Finset.sum_congr rfl fun s _ => ?_
  have hk := contrEquiv1_symm_val dot_S128x4096_S4096x512_S128x512_1_0_0_1_n_n 4096 rfl rfl s
  have el : dot_S128x4096_S4096x512_S128x512_1_0_0_1_n_n.lhsIdx (ix2 h d) ((contrEquiv1 dot_S128x4096_S4096x512_S128x512_1_0_0_1_n_n 4096 rfl rfl).symm s) = ix2 h s :=
    funext fun a => Fin.ext (by
      match a with
      | ⟨0, _⟩ => exact value_product_lhs_free _ _
      | ⟨1, _⟩ => exact (value_product_lhs_contr _ _).trans hk)
  have er : dot_S128x4096_S4096x512_S128x512_1_0_0_1_n_n.rhsIdx (ix2 h d) ((contrEquiv1 dot_S128x4096_S4096x512_S128x512_1_0_0_1_n_n 4096 rfl rfl).symm s) = ix2 s d :=
    funext fun a => Fin.ext (by
      match a with
      | ⟨1, _⟩ => exact value_product_rhs_free _ _
      | ⟨0, _⟩ => exact (value_product_rhs_contr _ _).trans hk)
  rw [el, er]

/-! ## A row's entries -/

/-- Row `h`'s entry `s` of a `128 × 4096` array, as the reductions over axis 1 index it. -/
theorem row_entry (h : Fin 128) (s : Fin 4096) : reduces_S128x4096_S128.lift (ix1 h) s = ix2 h s :=
  funext fun a => Fin.ext (by match a with | ⟨0, _⟩ => rfl | ⟨1, _⟩ => rfl)

/-! ## The stages are the definition's -/

theorem scoresM_apply (h : Fin 128) (s : Fin 4096) :
    scoresM x0 x1 x2 x3 (ix2 h s) = score (qRow x0 h) (qpRow x1 h) (kvRows x2) (kpRows x3) s := by
  unfold scoresM score
  rw [mulf_apply, addf_apply, broadcast_apply, latent_product, rotary_product]
  simp only [qM_apply, qpM_apply, kvM_apply, kpM_apply]
  rfl

theorem peakV_apply (h : Fin 128) :
    peakV x0 x1 x2 x3 (ix1 h) = peak (qRow x0 h) (qpRow x1 h) (kvRows x2) (kpRows x3) := by
  unfold peakV peak
  rw [maximumf_apply, broadcast_apply]
  refine congrArg (max floor) ?_
  refine (Ideal.multiReduction_maximumf_single (scoresM x0 x1 x2 x3) 0xFF800000#32 reduces_S128x4096_S128 (.inl rfl) rfl (ix1 h)).trans ?_
  have e : (scoresM x0 x1 x2 x3 ∘ reduces_S128x4096_S128.lift (ix1 h)) = score (qRow x0 h) (qpRow x1 h) (kvRows x2) (kpRows x3) :=
    funext fun s => (congrArg (scoresM x0 x1 x2 x3) (row_entry h s)).trans (scoresM_apply x0 x1 x2 x3 h s)
  rw [e]
  rfl

theorem weightsM_apply (h : Fin 128) (s : Fin 4096) :
    weightsM x0 x1 x2 x3 (ix2 h s) = weight (qRow x0 h) (qpRow x1 h) (kvRows x2) (kpRows x3) s := by
  unfold weightsM weight
  show Ideal.exp (scoresM x0 x1 x2 x3 (ix2 h s) - broadcastTo S128x4096 (shapeCast S128x1 (peakV x0 x1 x2 x3) shapeCasts_S128_S128x1) broadcasts_S128x1_S128x4096 (ix2 h s)) = _
  rw [Cert.LibColumn.broadcastTo_a1_ab_apply, Cert.LibColumn.shapeCast_a_a1_apply, scoresM_apply, peakV_apply]

theorem massV_apply (h : Fin 128) :
    massV x0 x1 x2 x3 (ix1 h) = mass (qRow x0 h) (qpRow x1 h) (kvRows x2) (kpRows x3) := by
  unfold massV mass
  refine (Ideal.multiReduction_add_single (weightsM x0 x1 x2 x3) 0x00000000#32 reduces_S128x4096_S128 (.inl rfl) rfl (ix1 h)).trans ?_
  exact Finset.sum_congr rfl fun s _ => (congrArg (weightsM x0 x1 x2 x3) (row_entry h s)).trans (weightsM_apply x0 x1 x2 x3 h s)

theorem probsM_apply (h : Fin 128) (s : Fin 4096) :
    probsM x0 x1 x2 x3 (ix2 h s) = prob (qRow x0 h) (qpRow x1 h) (kvRows x2) (kpRows x3) s := by
  unfold probsM prob
  show Ideal.div (weightsM x0 x1 x2 x3 (ix2 h s)) (broadcastTo S128x4096 (shapeCast S128x1 (massV x0 x1 x2 x3) shapeCasts_S128_S128x1) broadcasts_S128x1_S128x4096 (ix2 h s)) = _
  rw [Cert.LibColumn.broadcastTo_a1_ab_apply, Cert.LibColumn.shapeCast_a_a1_apply, weightsM_apply, massV_apply]

theorem outM_apply (h : Fin 128) (d : Fin 512) :
    outM x0 x1 x2 x3 (ix2 h d) = head (qRow x0 h) (qpRow x1 h) (kvRows x2) (kpRows x3) d := by
  unfold outM head
  rw [value_product]
  exact Finset.sum_congr rfl fun s _ => by
    rw [truncf_apply, probsM_apply, kvM_apply]

/-- The stored block at `(0, h, d)` is head `h`'s output at latent coordinate `d`. -/
theorem payload_apply (z : Fin 1) (h : Fin 128) (d : Fin 512) :
    k0_pay1 x0 x1 x2 x3 (ix3 z h d) = head (qRow x0 h) (qpRow x1 h) (kvRows x2) (kpRows x3) d := by
  rw [payload_eq]
  refine (shapeCast_apply (outM x0 x1 x2 x3) shapeCasts_S128x512_S1x128x512 (ix3 z h d) (ix2 h d) (by
    have hz : z.val = 0 := by omega
    rw [Shape.rowMajor_val_two, Shape.rowMajor_val_three]
    show h.val * 512 + d.val = (z.val * 128 + h.val) * 512 + d.val
    rw [hz]; omega)).trans ?_
  exact outM_apply x0 x1 x2 x3 h d

end Cert.KernelIdeal.Head

end
-- ==== Proof.KernelAttends.lean ====
/-
  The kernel's result array after the run is `Attention.attend` of its four arguments.

  Grid point `t` works on batch `t` alone: its four input blocks are batch `t` of the four arguments, and the block it
  writes back is batch `t` of the result.  By the body's reading (`Head.payload_apply`) what it writes at `(0, h, d)`
  is head `h` of batch `t` attending to batch `t`'s keys, which is `attend` at `(t, h, d)`.  The 64 blocks are the 64
  batches, so they cover the array, and the array ends holding `attend` everywhere.
-/
import proofs.«135643_j50680614093643_1_alg».proof.Proof.Gen.KernelIdeal.Value
import proofs.«135643_j50680614093643_1_alg».proof.Proof.KernelHead

noncomputable section

open scoped BigOperators
open Idealize.ShloMosaic Idealize.ShloMosaic.TcCoe Idealize.SL.Sem Idealize.ShloMosaic.ValueIdx
open Idealize.ShloMosaic.Pipeline (Dat)

namespace Cert.KernelIdeal.Attends

open Cert.KernelIdeal Cert.KernelIdeal.Gen Cert.Attention

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- A grid point as a batch number. -/
def batch (t : Fin cfg0.N) : Fin 64 := ⟨t.val, Nat.lt_of_lt_of_eq t.isLt N_0⟩

/-- The index maps, decided over the 64 points: every window's block index is the point on the batch axis and zero on
    every other axis. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 3) = t.val ∧ win0_4.index t (1 : Fin 3) = 0 ∧ win0_4.index t (2 : Fin 3) = 0) :=
  (by decide +kernel : ∀ t : Fin grid0.N, _)

/-! ## Each input block is a batch of its argument -/

theorem q_block (c : Dev nD) (t : Fin cfg0.N) (h : Fin 128) (k : Fin 512) :
    (iblk m c 0 t : Vec Ideal S1x128x512 .f32) (ix3 (0 : Fin 1) h k)
      = (V m c main_arg0 : S64x128x512.Idx → EReal) (ix3 (batch t) h k) := by
  obtain ⟨⟨e0, e1, e2⟩, -⟩ := index_facts t
  unfold iblk
  rw [View.read_apply]
  show V m c main_arg0 _ = V m c main_arg0 _
  refine congrArg (V m c main_arg0) ?_
  funext a; apply Fin.ext
  match a with
  | ⟨0, _⟩ => show win0_0.index t (0 : Fin 3) * 1 + 1 * 0 = t.val; omega
  | ⟨1, _⟩ => show win0_0.index t (1 : Fin 3) * 128 + 1 * h.val = h.val; omega
  | ⟨2, _⟩ => show win0_0.index t (2 : Fin 3) * 512 + 1 * k.val = k.val; omega

theorem qp_block (c : Dev nD) (t : Fin cfg0.N) (h : Fin 128) (k : Fin 64) :
    (iblk m c 1 t : Vec Ideal S1x128x64 .f32) (ix3 (0 : Fin 1) h k)
      = (V m c main_arg1 : S64x128x64.Idx → EReal) (ix3 (batch t) h k) := by
  obtain ⟨-, ⟨e0, e1, e2⟩, -⟩ := index_facts t
  unfold iblk
  rw [View.read_apply]
  show V m c main_arg1 _ = V m c main_arg1 _
  refine congrArg (V m c main_arg1) ?_
  funext a; apply Fin.ext
  match a with
  | ⟨0, _⟩ => show win0_1.index t (0 : Fin 3) * 1 + 1 * 0 = t.val; omega
  | ⟨1, _⟩ => show win0_1.index t (1 : Fin 3) * 128 + 1 * h.val = h.val; omega
  | ⟨2, _⟩ => show win0_1.index t (2 : Fin 3) * 64 + 1 * k.val = k.val; omega

theorem kv_block (c : Dev nD) (t : Fin cfg0.N) (s : Fin 4096) (k : Fin 512) :
    (iblk m c 2 t : Vec Ideal S1x4096x1x512 .f32) (ix4 (0 : Fin 1) s (0 : Fin 1) k)
      = (V m c main_arg2 : S64x4096x1x512.Idx → EReal) (ix4 (batch t) s (0 : Fin 1) k) := by
  obtain ⟨-, -, ⟨e0, e1, e2, e3⟩, -⟩ := index_facts t
  unfold iblk
  rw [View.read_apply]
  show V m c main_arg2 _ = V m c main_arg2 _
  refine congrArg (V m c main_arg2) ?_
  funext a; apply Fin.ext
  match a with
  | ⟨0, _⟩ => show win0_2.index t (0 : Fin 4) * 1 + 1 * 0 = t.val; omega
  | ⟨1, _⟩ => show win0_2.index t (1 : Fin 4) * 4096 + 1 * s.val = s.val; omega
  | ⟨2, _⟩ => show win0_2.index t (2 : Fin 4) * 1 + 1 * 0 = 0; omega
  | ⟨3, _⟩ => show win0_2.index t (3 : Fin 4) * 512 + 1 * k.val = k.val; omega

theorem kp_block (c : Dev nD) (t : Fin cfg0.N) (s : Fin 4096) (k : Fin 64) :
    (iblk m c 3 t : Vec Ideal S1x4096x1x64 .f32) (ix4 (0 : Fin 1) s (0 : Fin 1) k)
      = (V m c main_arg3 : S64x4096x1x64.Idx → EReal) (ix4 (batch t) s (0 : Fin 1) k) := by
  obtain ⟨-, -, -, ⟨e0, e1, e2, e3⟩, -⟩ := index_facts t
  unfold iblk
  rw [View.read_apply]
  show V m c main_arg3 _ = V m c main_arg3 _
  refine congrArg (V m c main_arg3) ?_
  funext a; apply Fin.ext
  match a with
  | ⟨0, _⟩ => show win0_3.index t (0 : Fin 4) * 1 + 1 * 0 = t.val; omega
  | ⟨1, _⟩ => show win0_3.index t (1 : Fin 4) * 4096 + 1 * s.val = s.val; omega
  | ⟨2, _⟩ => show win0_3.index t (2 : Fin 4) * 1 + 1 * 0 = 0; omega
  | ⟨3, _⟩ => show win0_3.index t (3 : Fin 4) * 64 + 1 * k.val = k.val; omega

/-- Where the output block's entry `(z, h, d)` at point `t` sits in the result array. -/
theorem out_block (t : Fin cfg0.N) (z : Fin 1) (h : Fin 128) (d : Fin 512) :
    (((cfg0.win 4).blk t).view.emb (ix3 z h d) : S64x128x512.Idx) = ix3 (batch t) h d := by
  obtain ⟨-, -, -, -, ⟨e0, e1, e2⟩⟩ := index_facts t
  have hz : z.val = 0 := by omega
  funext a; apply Fin.ext
  match a with
  | ⟨0, _⟩ => show win0_4.index t (0 : Fin 3) * 1 + 1 * z.val = t.val; omega
  | ⟨1, _⟩ => show win0_4.index t (1 : Fin 3) * 128 + 1 * h.val = h.val; omega
  | ⟨2, _⟩ => show win0_4.index t (2 : Fin 3) * 512 + 1 * d.val = d.val; omega

/-! ## What a point writes back, the cover, the array -/

/-- The whole result, as a function of the arrays the region finds. -/
abbrev result (c : Dev nD) : S64x128x512.Idx → EReal :=
  attend (V m c main_arg0) (V m c main_arg1) (V m c main_arg2) (V m c main_arg3)

/-- Point `t` writes back batch `t` of the attention. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros3]
  simp only [View.ld_unit_zero (S := S1x128x512) zeros3, View.ld_unit_zero (S := S1x128x64) zeros3,
    View.ld_unit_zero (S := S1x4096x1x512) zeros4, View.ld_unit_zero (S := S1x4096x1x64) zeros4]
  funext j
  obtain ⟨z, h, d, rfl⟩ : ∃ (z : Fin 1) (h : Fin 128) (d : Fin 512), j = ix3 z h d := ⟨j 0, j 1, j 2, eq_ix3 j⟩
  show k0_pay1 (iblk m c 0 t) (iblk m c 1 t) (iblk m c 2 t) (iblk m c 3 t) (ix3 z h d)
    = result m c (((cfg0.win 4).blk t).view.emb (ix3 z h d))
  rw [out_block t z h d, Head.payload_apply]
  show _ = attendAt (V m c main_arg0) (V m c main_arg1) (V m c main_arg2) (V m c main_arg3) (batch t) h d
  unfold attendAt
  have e0 : Head.qRow (iblk m c 0 t) h = fun k => V m c main_arg0 (ix3 (batch t) h k) :=
    funext fun k => q_block m c t h k
  have e1 : Head.qpRow (iblk m c 1 t) h = fun k => V m c main_arg1 (ix3 (batch t) h k) :=
    funext fun k => qp_block m c t h k
  have e2 : Head.kvRows (iblk m c 2 t) = fun s k => V m c main_arg2 (ix4 (batch t) s (0 : Fin 1) k) :=
    funext fun s => funext fun k => kv_block m c t s k
  have e3 : Head.kpRows (iblk m c 3 t) = fun s k => V m c main_arg3 (ix4 (batch t) s (0 : Fin 1) k) :=
    funext fun s => funext fun k => kp_block m c t s k
  rw [e0, e1, e2, e3]

/-- An index of the result array is in point `t`'s block iff each coordinate is in the block's range on its axis. -/
theorem mem_block (t : Fin cfg0.N) (i : S64x128x512.Idx) :
    i ∈ ((cfg0.win 4).blk t).view.set ↔ ∀ a : Fin 3, win0_4.index t a * S1x128x512.size a ≤ (i a).val ∧ (i a).val < win0_4.index t a * S1x128x512.size a + S1x128x512.size a := by
  show i ∈ ((View.whole main_v0).slice (win0_4.rect t)).set ↔ _
  rw [View.set_slice_whole, Rect.mem_set_unit]
  exact Iff.rfl

/-- Every index of the result array is in its batch's block. -/
theorem covered (i : S64x128x512.Idx) :
    ∃ t : Fin cfg0.N, (cfg0.win 4).flush t = true ∧ i ∈ ((cfg0.win 4).blk t).view.set := by
  have h0 : (i 0).val < 64 := (i 0).isLt
  have h1 : (i 1).val < 128 := (i 1).isLt
  have h2 : (i 2).val < 512 := (i 2).isLt
  obtain ⟨t, ht⟩ : ∃ t : Fin cfg0.N, t.val = (i 0).val := ⟨⟨(i 0).val, Nat.lt_of_lt_of_eq h0 N_0.symm⟩, rfl⟩
  refine ⟨t, flush0_4 t, ?_⟩
  obtain ⟨-, -, -, -, ⟨e0, e1, e2⟩⟩ := index_facts t
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 512 ≤ (i 2).val ∧ (i 2).val < win0_4.index t (2 : Fin 3) * 512 + 512; omega

/-- The result array after the run. -/
theorem final (c : Dev nD) : (dats m 0 c).arrAt 4 cfg0.N = result m c :=
  (dats m 0 c).arrAt_eq_of_cover 4 (result m c) (fun t _ => flushed_eq m c t) covered

/-- The kernel's run, read: the result array at the attention of the arguments, the arguments unchanged. -/
theorem run : θ_run defs (onTc (τ := τ) (main (F := Ideal))) ⟨m, fun _ => 0, ρ⟩ fun r => ∀ c : Dev nD,
      r.2.mem ((c : Thread nD τ).loc main_v0)
        = attend (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Attends

end
-- ==== Proof.ReferenceAttends.lean ====
/-
  The reference program computes `Attention.attend` of its four arguments.

  Its stages are read one at a time at an index: the two inner products (the keys' arrays first losing their unit
  axis) added and scaled are a key's score; the maximum over the keys, started from minus infinity and met with it once
  more, is the row's peak; the exponentials of the scores taken off the peak are the weights; their sum over the keys,
  from zero, is the mass; the quotient is the probability; and the last inner product, over the keys, is the head's
  output.  Nothing is rearranged: each stage is the definition's, term by term.
-/
import proofs.«135643_j50680614093643_1_alg».proof.Proof.Gen.ReferenceIdeal.Read
import proofs.«135643_j50680614093643_1_alg».proof.Proof.Attention
import Idealize.ShloMosaic.PureOps.Reduce

noncomputable section

open scoped BigOperators
open Idealize.ShloMosaic Idealize.ShloMosaic.ValueIdx

namespace Cert.ReferenceIdeal.Attends

open Cert.ReferenceIdeal Cert.ReferenceIdeal.Gen Cert.ReferenceIdeal.Read Cert.Attention

variable (x0 : (⟨S64x128x512, .f32⟩ : BufTy).Contents (Elt Ideal)) (x1 : (⟨S64x128x64, .f32⟩ : BufTy).Contents (Elt Ideal))
  (x2 : (⟨S64x4096x1x512, .f32⟩ : BufTy).Contents (Elt Ideal)) (x3 : (⟨S64x4096x1x64, .f32⟩ : BufTy).Contents (Elt Ideal))

/-! ## The stages' index maps at coordinates -/

/-- Dropping the keys' unit axis: entry `(b, s, k)` of the latent keys is entry `(b, s, 0, k)` of the argument. -/
theorem latent_index (b : Fin 64) (s : Fin 4096) (k : Fin 512) : idx_main_v0 (ix3 b s k) = ix4 b s (0 : Fin 1) k := by
  have hb := b.isLt; have hs := s.isLt; have hk := k.isLt
  funext a; apply Fin.ext
  match a with
  | ⟨0, _⟩ => show ((b.val * 4096 + s.val) * 512 + k.val) / 2097152 = b.val; omega
  | ⟨1, _⟩ => show ((b.val * 4096 + s.val) * 512 + k.val) / 512 % 4096 = s.val; omega
  | ⟨2, _⟩ => rfl
  | ⟨3, _⟩ => show ((b.val * 4096 + s.val) * 512 + k.val) % 512 = k.val; omega

/-- The same for the rotary keys. -/
theorem rotary_index (b : Fin 64) (s : Fin 4096) (k : Fin 64) : idx_main_v1 (ix3 b s k) = ix4 b s (0 : Fin 1) k := by
  have hb := b.isLt; have hs := s.isLt; have hk := k.isLt
  funext a; apply Fin.ext
  match a with
  | ⟨0, _⟩ => show ((b.val * 4096 + s.val) * 64 + k.val) / 262144 = b.val; omega
  | ⟨1, _⟩ => show ((b.val * 4096 + s.val) * 64 + k.val) / 64 % 4096 = s.val; omega
  | ⟨2, _⟩ => rfl
  | ⟨3, _⟩ => show ((b.val * 4096 + s.val) * 64 + k.val) % 64 = k.val; omega

theorem lhs_latent (b : Fin 64) (h : Fin 128) (s : Fin 4096) (k : Fin 512) : lidx_main_v2 (ix3 b h s) k = ix3 b h k :=
  funext fun a => Fin.ext (by match a with | ⟨0, _⟩ => rfl | ⟨1, _⟩ => rfl | ⟨2, _⟩ => rfl)
theorem rhs_latent (b : Fin 64) (h : Fin 128) (s : Fin 4096) (k : Fin 512) : ridx_main_v2 (ix3 b h s) k = ix3 b s k :=
  funext fun a => Fin.ext (by match a with | ⟨0, _⟩ => rfl | ⟨1, _⟩ => rfl | ⟨2, _⟩ => rfl)
theorem lhs_rotary (b : Fin 64) (h : Fin 128) (s : Fin 4096) (k : Fin 64) : lidx_main_v3 (ix3 b h s) k = ix3 b h k :=
  funext fun a => Fin.ext (by match a with | ⟨0, _⟩ => rfl | ⟨1, _⟩ => rfl | ⟨2, _⟩ => rfl)
theorem rhs_rotary (b : Fin 64) (h : Fin 128) (s : Fin 4096) (k : Fin 64) : ridx_main_v3 (ix3 b h s) k = ix3 b s k :=
  funext fun a => Fin.ext (by match a with | ⟨0, _⟩ => rfl | ⟨1, _⟩ => rfl | ⟨2, _⟩ => rfl)
theorem row_of_entry (b : Fin 64) (h : Fin 128) (s : Fin 4096) : idx_main_v10 (idx_main_v11 (ix3 b h s)) = ix2 b h :=
  funext fun a => Fin.ext (by match a with | ⟨0, _⟩ => rfl | ⟨1, _⟩ => rfl)
theorem row_of_entry' (b : Fin 64) (h : Fin 128) (s : Fin 4096) : idx_main_v15 (idx_main_v16 (ix3 b h s)) = ix2 b h :=
  funext fun a => Fin.ext (by match a with | ⟨0, _⟩ => rfl | ⟨1, _⟩ => rfl)
theorem entry_of_row (b : Fin 64) (h : Fin 128) (s : Fin 4096) : idx_main_v14 (ix2 b h) s = ix3 b h s :=
  funext fun a => Fin.ext (by match a with | ⟨0, _⟩ => rfl | ⟨1, _⟩ => rfl | ⟨2, _⟩ => rfl)
theorem lhs_out (b : Fin 64) (h : Fin 128) (d : Fin 512) (s : Fin 4096) : lidx_main_v18 (ix3 b h d) s = ix3 b h s :=
  funext fun a => Fin.ext (by match a with | ⟨0, _⟩ => rfl | ⟨1, _⟩ => rfl | ⟨2, _⟩ => rfl)
theorem rhs_out (b : Fin 64) (h : Fin 128) (d : Fin 512) (s : Fin 4096) : ridx_main_v18 (ix3 b h d) s = ix3 b s d :=
  funext fun a => Fin.ext (by match a with | ⟨0, _⟩ => rfl | ⟨1, _⟩ => rfl | ⟨2, _⟩ => rfl)

/-! ## The stages are the definition's -/

/-- The head's and the keys' rows, as the definition takes them. -/
abbrev qRow (b : Fin 64) (h : Fin 128) : Fin 512 → EReal := fun k => x0 (ix3 b h k)
abbrev qpRow (b : Fin 64) (h : Fin 128) : Fin 64 → EReal := fun k => x1 (ix3 b h k)
abbrev kvRows (b : Fin 64) : Fin 4096 → Fin 512 → EReal := fun s k => x2 (ix4 b s (0 : Fin 1) k)
abbrev kpRows (b : Fin 64) : Fin 4096 → Fin 64 → EReal := fun s k => x3 (ix4 b s (0 : Fin 1) k)

theorem score_eq (b : Fin 64) (h : Fin 128) (s : Fin 4096) :
    val_main_v6 (F := Ideal) x0 x1 x2 x3 (ix3 b h s)
      = score (qRow x0 b h) (qpRow x1 b h) (kvRows x2 b) (kpRows x3 b) s := by
  rw [val_main_v6_apply, val_main_v4_apply, val_main_v2_apply, val_main_v3_apply, val_main_v5_apply, val_main_cst_apply]
  simp only [val_main_v0_apply, val_main_v1_apply, lhs_latent, rhs_latent, lhs_rotary, rhs_rotary, latent_index, rotary_index]
  rfl

theorem peak_eq (b : Fin 64) (h : Fin 128) :
    val_main_v9 (F := Ideal) x0 x1 x2 x3 (ix2 b h) = peak (qRow x0 b h) (qpRow x1 b h) (kvRows x2 b) (kpRows x3 b) := by
  rw [val_main_v9_apply, val_main_v8_apply, val_main_cst_1_apply]
  unfold val_main_v7
  rw [Host.reduce_eq_fold_single FloatOps.maximumf _ _ reducesTo_S64x128x4096_S64x128_d2 (by decide) h_S_ (ix2 b h)]
  have e : (val_main_v6 (F := Ideal) x0 x1 x2 x3 ∘ (by decide : S64x128x4096.Reduces [2] S64x128).lift (ix2 b h))
      = score (qRow x0 b h) (qpRow x1 b h) (kvRows x2 b) (kpRows x3 b) := funext fun s =>
    (congrArg (val_main_v6 (F := Ideal) x0 x1 x2 x3)
      (funext fun a => Fin.ext (by match a with | ⟨0, _⟩ => rfl | ⟨1, _⟩ => rfl | ⟨2, _⟩ => rfl))).trans (score_eq x0 x1 x2 x3 b h s)
  rw [e]
  rfl

theorem weight_eq (b : Fin 64) (h : Fin 128) (s : Fin 4096) :
    val_main_v13 (F := Ideal) x0 x1 x2 x3 (ix3 b h s)
      = weight (qRow x0 b h) (qpRow x1 b h) (kvRows x2 b) (kpRows x3 b) s := by
  rw [val_main_v13_apply, val_main_v12_apply, val_main_v11_apply, val_main_v10_apply, row_of_entry, score_eq, peak_eq]
  rfl

theorem mass_eq (b : Fin 64) (h : Fin 128) :
    val_main_v14 (F := Ideal) x0 x1 x2 x3 (ix2 b h) = mass (qRow x0 b h) (qpRow x1 b h) (kvRows x2 b) (kpRows x3 b) := by
  rw [val_main_v14_apply, val_main_cst_2_apply]
  simp only [entry_of_row, weight_eq]
  show Ideal.ofBits .f32 0x00000000#32 + _ = _
  rw [Ideal.ofBits_zero_f32, zero_add]
  rfl

theorem prob_eq (b : Fin 64) (h : Fin 128) (s : Fin 4096) :
    val_main_v17 (F := Ideal) x0 x1 x2 x3 (ix3 b h s)
      = prob (qRow x0 b h) (qpRow x1 b h) (kvRows x2 b) (kpRows x3 b) s := by
  rw [val_main_v17_apply, val_main_v16_apply, val_main_v15_apply, row_of_entry', weight_eq, mass_eq]
  rfl

/-- The reference's result is the attention of its arguments. -/
theorem result_eq : val_main_v18 (F := Ideal) x0 x1 x2 x3 = attend x0 x1 x2 x3 := by
  funext i
  obtain ⟨b, h, d, rfl⟩ : ∃ (b : Fin 64) (h : Fin 128) (d : Fin 512), i = ix3 b h d := ⟨i 0, i 1, i 2, eq_ix3 i⟩
  rw [val_main_v18_apply, attend_ix3]
  simp only [lhs_out, rhs_out, prob_eq, val_main_v0_apply, latent_index]
  rfl

end Cert.ReferenceIdeal.Attends

end
-- ==== Proof.lean ====
/-
  Latent attention with a separate rotary part, one batch per grid point, against its array-level reference: the
  two programs compute the same function on the extended reals.

  Both form, for every batch and head, the keys' scores (the latent inner product plus the rotary inner product, times
  the binary32 word nearest 1/24), take the exponentials of the scores below the row's maximum, divide by their sum, and
  combine the keys' latent rows with the resulting probabilities.  The kernel does it one batch at a time with matrix
  products into zero accumulators and row reductions; the reference does it for all batches at once with batched
  contractions.  On the extended reals roundings are the identity and every sum is the plain sum, so each side is read,
  stage by stage and index by index, as `Attention.attend` of the four arguments (`KernelAttends`, `ReferenceAttends`),
  and the two results agree because they are that one function of arguments that agree.  No rearrangement of a sum and
  no cancellation is used, so the finiteness of the inputs is never needed.

  The three programs' runs (termination, no fault, arguments unchanged) are the generated ones; the idealized kernel
  is the kernel's own text read on the extended reals, with no rewrite to account for.
-/
import proofs.«135643_j50680614093643_1_alg».proof.Defs
import proofs.«135643_j50680614093643_1_alg».proof.Proof.Gen.Kernel
import proofs.«135643_j50680614093643_1_alg».proof.Proof.Gen.Kernel.Skeleton
import proofs.«135643_j50680614093643_1_alg».proof.Proof.Gen.Kernel.Launch
import proofs.«135643_j50680614093643_1_alg».proof.Proof.Gen.Kernel.Points
import proofs.«135643_j50680614093643_1_alg».proof.Proof.Gen.Kernel.Frame
import proofs.«135643_j50680614093643_1_alg».proof.Proof.Gen.KernelIdeal
import proofs.«135643_j50680614093643_1_alg».proof.Proof.Gen.KernelIdeal.Skeleton
import proofs.«135643_j50680614093643_1_alg».proof.Proof.Gen.KernelIdeal.Launch
import proofs.«135643_j50680614093643_1_alg».proof.Proof.Gen.KernelIdeal.Points
import proofs.«135643_j50680614093643_1_alg».proof.Proof.Gen.KernelIdeal.Frame
import proofs.«135643_j50680614093643_1_alg».proof.Proof.Gen.ReferenceIdeal
import proofs.«135643_j50680614093643_1_alg».proof.Proof.Gen.Pre_finite_inputs
import proofs.«135643_j50680614093643_1_alg».proof.Proof.Gen.KernelIdeal.Value
import proofs.«135643_j50680614093643_1_alg».proof.Proof.Gen.ReferenceIdeal.Run
import proofs.«135643_j50680614093643_1_alg».proof.Proof.Gen.ReferenceIdeal.Read
import proofs.«135643_j50680614093643_1_alg».proof.Proof.KernelAttends
import proofs.«135643_j50680614093643_1_alg».proof.Proof.ReferenceAttends
import Idealize.ShloMosaic.Adequacy
import Idealize.ShloMosaic.Init

noncomputable section

namespace Cert.Proof

open Idealize.ShloMosaic Idealize.SL.Sem Cert.Kernel

/-- The kernel at the word level runs and leaves its arguments alone. -/
theorem frame_kernel : Cert.frame_Kernel := fun m ρ _ => Cert.Kernel.Gen.frame m ρ

/-- So does the kernel on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, the kernel's result array and the reference's result are both the attention of the
    arguments. -/
theorem algebraic : Cert.algebraic_KernelIdeal_ReferenceIdeal := by
  intro m ρ m' ρ' _ hagree
  refine ⟨fun c => Cert.Attention.attend (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Attends.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.Attends.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
